-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 108
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x1, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S2000x256_S256x128_S2000x128_1_0_0_1_n_n_wf : DotDims.WF S2000x256 S256x128 S2000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x1, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x256_S256x128_S50000x128_1_0_0_1_n_n_wf : DotDims.WF S50000x256 S256x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibPlainDot.lean ====
/-
  A matrix product with the plain dimension numbers — the left operand's second axis contracted against the right
  operand's first, no batch axis — read at one entry of its result on the extended reals: entry (row, column) is
  the sum, over the contracted coordinate k, of left (row, k) · right (k, column).

  The dimension numbers index the contraction by a shape of their own (one axis, of the contracted extent); the sum
  over that shape's indices is re-indexed through its one coordinate. Both the vector unit's product into a zero
  accumulator and the host's dot product are this same sum, so a product computed on a block of rows agrees, entry
  by entry, with the product of the whole arrays.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The dimension numbers of a plain product of an M×K by a K×N matrix: contract the left operand's axis 1
    against the right operand's axis 0; the left rows and the right columns are kept; no batch axis. -/
structure IsPlain (d : DotDims ⟨2, ![M, K]⟩ ⟨2, ![K, N]⟩ ⟨2, ![M, N]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

variable {d : DotDims ⟨2, ![M, K]⟩ ⟨2, ![K, N]⟩ ⟨2, ![M, N]⟩}

/-- The left operand is read in the result's row. -/
theorem lhsIdx_row (h : IsPlain d) (j : (⟨2, ![M, N]⟩ : Shape).Idx) (k : d.contr.Idx) :
    (d.lhsIdx j k (0 : Fin 2)).val = (j (0 : Fin 2)).val := by
  unfold DotDims.lhsIdx
  rw [dif_neg (by rw [h.lb]; exact List.not_mem_nil), dif_pos (by rw [h.ln]; exact List.mem_singleton.mpr rfl)]
  simp only [Fin.val_cast]
  have key : ∀ (p : Nat) (hp : p < 2), p = 0 → (j ⟨p, hp⟩).val = (j (0 : Fin 2)).val :=
    fun p hp e => by subst e; rfl
  exact key _ _ (by simp [h.lb, h.ln])

/-- The right operand is read in the result's column. -/
theorem rhsIdx_col (h : IsPlain d) (j : (⟨2, ![M, N]⟩ : Shape).Idx) (k : d.contr.Idx) :
    (d.rhsIdx j k (1 : Fin 2)).val = (j (1 : Fin 2)).val := by
  unfold DotDims.rhsIdx
  rw [dif_neg (by rw [h.rb]; exact List.not_mem_nil), dif_pos (by rw [h.rn]; exact List.mem_singleton.mpr rfl)]
  simp only [Fin.val_cast]
  have key : ∀ (p : Nat) (hp : p < 2), p = 1 → (j ⟨p, hp⟩).val = (j (1 : Fin 2)).val :=
    fun p hp e => by subst e; rfl
  exact key _ _ (by simp [h.lb, h.ln, h.rn])

/-- The contraction has one axis … -/
theorem rank_contr (h : IsPlain d) : d.contr.rank = 1 := by rw [d.rank_contr, h.lc]; rfl

/-- … of the contracted extent. -/
theorem size_contr (h : IsPlain d) : d.contr.size ⟨0, by rw [rank_contr h]; exact Nat.one_pos⟩ = K :=
  (d.size_contr 0 (by rw [h.lc]; exact Nat.one_pos)).trans (by rw [List.getElem_of_eq h.lc]; rfl)

/-- THE SUM, re-indexed: over the contraction's indices it is the sum over the contracted coordinate of
    left (row, k) · right (k, column). -/
theorem sum_eq (h : IsPlain d) {φ₁ φ₂ : FTy} (l : FVec Ideal ⟨2, ![M, K]⟩ φ₁) (r : FVec Ideal ⟨2, ![K, N]⟩ φ₂)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K (rank_contr h) (size_contr h)).symm]
  refine Finset.sum_congr rfl fun k _ => ?_
  have e1 : d.lhsIdx j ((contrEquiv1 d K (rank_contr h) (size_contr h)).symm k) = ix2 (j 0) k := by
    funext a; apply Fin.ext
    match a with
    | ⟨0, _⟩ => exact lhsIdx_row h j _
    | ⟨1, _⟩ => exact (d.lhsIdx_val_of_single h.lc j _).trans (contrEquiv1_symm_val d K (rank_contr h) (size_contr h) k)
  have e2 : d.rhsIdx j ((contrEquiv1 d K (rank_contr h) (size_contr h)).symm k) = ix2 k (j 1) := by
    funext a; apply Fin.ext
    match a with
    | ⟨0, _⟩ => exact (d.rhsIdx_val_of_single h.rc j _).trans (contrEquiv1_symm_val d K (rank_contr h) (size_contr h) k)
    | ⟨1, _⟩ => exact rhsIdx_col h j _
  exact congrArg₂ (· * ·) (congrArg l e1) (congrArg r e2)

/-- The vector unit's product accumulated into zero, at an entry. -/
theorem matmul_zero_apply (h : IsPlain d) {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (sum_eq h l r j)

/-- The host's dot product, at an entry: the same sum, whatever the schedule. -/
theorem dotGeneral_apply (h : IsPlain d) {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Idealize.ShloMosaic.PlainDot

end
-- ==== Proof.FirstProduct.lean ====
/-
  The first dense transform, computed block by block, is the whole product.

  The launch walks 25 grid points. Point t stages rows 2000·t … 2000·t + 1999 of the left array (all 256 columns),
  the whole 256×128 right array, and writes back rows 2000·t … 2000·t + 1999 of the result. Its body rounds both
  staged blocks to a narrower format — the identity on the extended reals — and multiplies them into a zero
  accumulator. Entry (p, q) of that block product is the sum over k of left (2000·t + p, k) · right (k, q), which is
  entry (2000·t + p, q) of the product of the whole arrays; the 25 row blocks tile the 50000 rows, so the result
  array ends holding the whole product, whatever else the region's entry contents are.
-/
import proofs.«122224_j21835613733678_1_alg».proof.Proof.Gen.KernelIdeal.Frame
import proofs.«122224_j21835613733678_1_alg».proof.Proof.LibPlainDot
import Idealize.ShloMosaic.Lib.Pipeline.Value
import Idealize.ShloMosaic.Lib.ValueIdx

set_option maxRecDepth 16384

noncomputable section

namespace Cert.KernelIdeal.Product0

open Cert.KernelIdeal Cert.KernelIdeal.Gen Idealize.ShloMosaic Idealize.ShloMosaic.TcCoe Idealize.SL.Sem
open Idealize.ShloMosaic.ValueIdx Idealize.ShloMosaic.PlainDot
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's product and the whole product both have the plain dimension numbers. -/
theorem plain_block : IsPlain (M := 2000) (K := 256) (N := 128) dot_S2000x256_S256x128_S2000x128_1_0_0_1_n_n := ⟨rfl, rfl, rfl, rfl, rfl, rfl⟩
theorem plain_whole : IsPlain (DotDims.plain 50000 256 128) := ⟨rfl, rfl, rfl, rfl, rfl, rfl⟩

/-- The product of the whole arrays, as the host computes it. -/
abbrev whole (a : S50000x256.Idx → Elt Ideal .f32) (b : S256x128.Idx → Elt Ideal .f32) : S50000x128.Idx → Elt Ideal .f32 :=
  Host.dotGeneral (F := Ideal) (φ₁ := .f32) (φ₂ := .f32) (DotDims.plain 50000 256 128) none a b

/-- An entry of the whole product. -/
theorem whole_apply (a : S50000x256.Idx → Elt Ideal .f32) (b : S256x128.Idx → Elt Ideal .f32) (i : S50000x128.Idx) :
    whole a b i = ∑ k : Fin 256, a (ix2 (i 0) k) * b (ix2 k (i 1)) :=
  PlainDot.dotGeneral_apply plain_whole none .single a b i

/-- An entry of the body's block product: the roundings are the identity, the accumulator starts at zero. -/
theorem block_apply (x0 : Vec Ideal S2000x256 .f32) (x1 : Vec Ideal S256x128 .f32) (j : S2000x128.Idx) :
    k0_pay1 (F := Ideal) x0 x1 j = ∑ k : Fin 256, x0 (ix2 (j 0) k) * x1 (ix2 k (j 1)) := by
  unfold k0_pay1
  exact PlainDot.matmul_zero_apply plain_block none _ _ j

/-- Where the windows' blocks sit: the left and result windows move down the rows with the point, the right window
    stays; none moves along the columns. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product of the arrays as the region finds them. -/
theorem flushed_eq (c : Dev nD) (t : Fin cfg0.N) :
    (dat0 V c).flushed 2 t
      = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero origin]
  simp only [View.ld_unit_zero (S := S2000x256) origin, View.ld_unit_zero (S := S256x128) origin]
  obtain ⟨e0, e1, e2, e3, e4, e5⟩ := block_index t
  funext j
  show k0_pay1 (F := Ideal) (iblk0 V c 0 t) (iblk0 V c 1 t) j
      = whole (V c main_arg0) (V c main_arg2) (((cfg0.win 2).blk t).view.emb j)
  rw [block_apply, whole_apply]
  refine Finset.sum_congr rfl fun k _ => ?_
  have hj0 : (j 0).val < 2000 := (j 0).isLt
  have hj1 : (j 1).val < 128 := (j 1).isLt
  have hk : k.val < 256 := k.isLt
  have hl : iblk0 V c 0 t (ix2 (j 0) k) = V c main_arg0 (ix2 ((((cfg0.win 2).blk t).view.emb j) 0) k) := by
    show V c main_arg0 (((cfg0.win 0).blk t).view.emb (ix2 (j 0) k)) = _
    congr 1; funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hr : iblk0 V c 1 t (ix2 k (j 1)) = V c main_arg2 (ix2 k ((((cfg0.win 2).blk t).view.emb j) 1)) := by
    show V c main_arg2 (((cfg0.win 1).blk t).view.emb (ix2 k (j 1))) = _
    congr 1; funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hl, hr]

/-- An index of the result array is in point t's block iff each coordinate is in the block's range on its axis. -/
theorem mem_block (t : Fin cfg0.N) (i : S50000x128.Idx) :
    i ∈ ((cfg0.win 2).blk t).view.set
      ↔ ∀ a : Fin 2, win0_2.index t a * S2000x128.size a ≤ (i a).val ∧ (i a).val < win0_2.index t a * S2000x128.size a + S2000x128.size a := by
  show i ∈ ((View.whole main_v15).slice (win0_2.rect t)).set ↔ _
  rw [View.set_slice_whole, Rect.mem_set_unit]
  exact Iff.rfl

/-- The row blocks tile the result: row r is in the block of point r / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  obtain ⟨e0, e1, e2, e3, e4, e5⟩ := block_index ⟨(i 0).val / 2000, by rw [hN]; omega⟩
  rw [mem_block]
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- THE RESULT ARRAY after the region: the whole product of the two input arrays as the region found them. -/
theorem result_eq (c : Dev nD) :
    (dat0 V c).arrAt 2 cfg0.N = whole (V c main_arg0) (V c main_arg2) :=
  (dat0 V c).arrAt_eq_of_cover 2 (whole (V c main_arg0) (V c main_arg2)) (fun t _ => flushed_eq V c t) covered

end Cert.KernelIdeal.Product0

end
-- ==== Proof.SecondProduct.lean ====
/-
  The second dense transform, computed block by block, is the whole product.

  The launch walks 25 grid points. Point t stages rows 2000·t … 2000·t + 1999 of the left array (all 128 columns),
  the whole 128×64 right array, and writes back rows 2000·t … 2000·t + 1999 of the result. Its body rounds both
  staged blocks to a narrower format — the identity on the extended reals — and multiplies them into a zero
  accumulator. Entry (p, q) of that block product is the sum over k of left (2000·t + p, k) · right (k, q), which is
  entry (2000·t + p, q) of the product of the whole arrays; the 25 row blocks tile the 50000 rows, so the result
  array ends holding the whole product, whatever else the region's entry contents are.
-/
import proofs.«122224_j21835613733678_1_alg».proof.Proof.Gen.KernelIdeal.Frame
import proofs.«122224_j21835613733678_1_alg».proof.Proof.LibPlainDot
import Idealize.ShloMosaic.Lib.Pipeline.Value
import Idealize.ShloMosaic.Lib.ValueIdx

set_option maxRecDepth 16384

noncomputable section

namespace Cert.KernelIdeal.Product1

open Cert.KernelIdeal Cert.KernelIdeal.Gen Idealize.ShloMosaic Idealize.ShloMosaic.TcCoe Idealize.SL.Sem
open Idealize.ShloMosaic.ValueIdx Idealize.ShloMosaic.PlainDot
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's product and the whole product both have the plain dimension numbers. -/
theorem plain_block : IsPlain (M := 2000) (K := 128) (N := 64) dot_S2000x128_S128x64_S2000x64_1_0_0_1_n_n := ⟨rfl, rfl, rfl, rfl, rfl, rfl⟩
theorem plain_whole : IsPlain (DotDims.plain 50000 128 64) := ⟨rfl, rfl, rfl, rfl, rfl, rfl⟩

/-- The product of the whole arrays, as the host computes it. -/
abbrev whole (a : S50000x128.Idx → Elt Ideal .f32) (b : S128x64.Idx → Elt Ideal .f32) : S50000x64.Idx → Elt Ideal .f32 :=
  Host.dotGeneral (F := Ideal) (φ₁ := .f32) (φ₂ := .f32) (DotDims.plain 50000 128 64) none a b

/-- An entry of the whole product. -/
theorem whole_apply (a : S50000x128.Idx → Elt Ideal .f32) (b : S128x64.Idx → Elt Ideal .f32) (i : S50000x64.Idx) :
    whole a b i = ∑ k : Fin 128, a (ix2 (i 0) k) * b (ix2 k (i 1)) :=
  PlainDot.dotGeneral_apply plain_whole none .single a b i

/-- An entry of the body's block product: the cast to the same shape and the roundings are the identity, the accumulator starts at zero. -/
theorem block_apply (x0 : Vec Ideal S2000x128 .f32) (x1 : Vec Ideal S128x64 .f32) (j : S2000x64.Idx) :
    k1_pay1 (F := Ideal) x0 x1 j = ∑ k : Fin 128, x0 (ix2 (j 0) k) * x1 (ix2 k (j 1)) := by
  unfold k1_pay1
  rw [shapeCast_self]
  exact PlainDot.matmul_zero_apply plain_block none _ _ j

/-- Where the windows' blocks sit: the left and result windows move down the rows with the point, the right window
    stays; none moves along the columns. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the whole product of the arrays as the region finds them. -/
theorem flushed_eq (c : Dev nD) (t : Fin cfg1.N) :
    (dat1 V c).flushed 2 t
      = ((cfg1.win 2).blk t).view.read (Elt Ideal) (whole (V c main_v47) (V c main_arg4)) := by
  show (cfg1.win 2).cut (grid1.coords t) ((dat1 V c).after 2 t) = _
  rw [after1_2]
  unfold out1_2
  rw [View.canon_unit_zero origin]
  simp only [View.ld_unit_zero (S := S2000x128) origin, View.ld_unit_zero (S := S128x64) origin]
  obtain ⟨e0, e1, e2, e3, e4, e5⟩ := block_index t
  funext j
  show k1_pay1 (F := Ideal) (iblk1 V c 0 t) (iblk1 V c 1 t) j
      = whole (V c main_v47) (V c main_arg4) (((cfg1.win 2).blk t).view.emb j)
  rw [block_apply, whole_apply]
  refine Finset.sum_congr rfl fun k _ => ?_
  have hj0 : (j 0).val < 2000 := (j 0).isLt
  have hj1 : (j 1).val < 64 := (j 1).isLt
  have hk : k.val < 128 := k.isLt
  have hl : iblk1 V c 0 t (ix2 (j 0) k) = V c main_v47 (ix2 ((((cfg1.win 2).blk t).view.emb j) 0) k) := by
    show V c main_v47 (((cfg1.win 0).blk t).view.emb (ix2 (j 0) k)) = _
    congr 1; funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have hr : iblk1 V c 1 t (ix2 k (j 1)) = V c main_arg4 (ix2 k ((((cfg1.win 2).blk t).view.emb j) 1)) := by
    show V c main_arg4 (((cfg1.win 1).blk t).view.emb (ix2 k (j 1))) = _
    congr 1; funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [hl, hr]

/-- An index of the result array is in point t's block iff each coordinate is in the block's range on its axis. -/
theorem mem_block (t : Fin cfg1.N) (i : S50000x64.Idx) :
    i ∈ ((cfg1.win 2).blk t).view.set
      ↔ ∀ a : Fin 2, win1_2.index t a * S2000x64.size a ≤ (i a).val ∧ (i a).val < win1_2.index t a * S2000x64.size a + S2000x64.size a := by
  show i ∈ ((View.whole main_v48).slice (win1_2.rect t)).set ↔ _
  rw [View.set_slice_whole, Rect.mem_set_unit]
  exact Iff.rfl

/-- The row blocks tile the result: row r is in the block of point r / 2000. -/
theorem covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_2 _, ?_⟩
  obtain ⟨e0, e1, e2, e3, e4, e5⟩ := block_index ⟨(i 0).val / 2000, by rw [hN]; omega⟩
  rw [mem_block]
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 64 ≤ (i 1).val ∧ (i 1).val < win1_2.index _ (1 : Fin 2) * 64 + 64
    rw [e5]; omega

/-- THE RESULT ARRAY after the region: the whole product of the two input arrays as the region found them. -/
theorem result_eq (c : Dev nD) :
    (dat1 V c).arrAt 2 cfg1.N = whole (V c main_v47) (V c main_arg4) :=
  (dat1 V c).arrAt_eq_of_cover 2 (whole (V c main_v47) (V c main_arg4)) (fun t _ => flushed_eq V c t) covered

end Cert.KernelIdeal.Product1

end
-- ==== Proof.KernelFold.lean ====
/-
  The idealized kernel's buffers, boundary by boundary, at the two launches.

  Between the host stretches the buffer contents change only at a launch's three arrays, and there only the result
  array changes: it ends holding the product of the two input arrays (FirstProduct, SecondProduct). So the first
  launch leaves in its result buffer the whole product x·W1 of what it found, every other buffer as it found it; and
  the second launch acts on the buffers exactly as the host operation "result := left · right" would — which lets the
  stretch after it be read as one straight line of host operations from the second launch's entry contents.
-/
import proofs.«122224_j21835613733678_1_alg».proof.Proof.Gen.KernelIdeal.Frame
import proofs.«122224_j21835613733678_1_alg».proof.Proof.FirstProduct
import proofs.«122224_j21835613733678_1_alg».proof.Proof.SecondProduct
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After the first launch its result buffer holds the whole product of the two arrays it read. -/
theorem first_result (c : Dev nD) :
    W3 m ρ c (Proc.devRef .tc main_v15)
      = Product0.whole (W2 m ρ c (Proc.devRef .tc main_arg0)) (W2 m ρ c (Proc.devRef .tc main_arg2)) :=
  (W3_arr m ρ c 2).trans (Product0.result_eq (V2 m ρ) c)

/-- The second launch as the host operation it amounts to: the result buffer takes the product of the other two. -/
abbrev secondDot : HloOp τ sig (Elt Ideal) :=
  StableHlo.binary main_v47 main_arg4 main_v48
    ((fun l r => Product1.whole l r) : (⟨S50000x128, .f32⟩ : BufTy).Contents (Elt Ideal) → (⟨S128x64, .f32⟩ : BufTy).Contents (Elt Ideal) → (⟨S50000x64, .f32⟩ : BufTy).Contents (Elt Ideal))

/-- The buffers after the second launch are the buffers before it with that one operation applied: its two input
    arrays end as they were found, its result array ends at their product, no other buffer is touched. -/
theorem second_region (c : Dev nD) : W6 m ρ c = secondDot.result (W5 m ρ c) := by
  funext b
  by_cases hb : ∃ w, Proc.devRef .tc (Pipeline.arrRef spec1 w) = b
  · obtain ⟨w, rfl⟩ := hb
    rw [W6_arr]
    match w with
    | ⟨0, _⟩ =>
      refine (((dat1 (V5 m ρ) c).arrAt_in 0 rfl _).trans (A_eq1 (V5 m ρ) c 0)).trans (Eq.symm ?_)
      show secondDot.result (W5 m ρ c) (Proc.devRef .tc main_v47) = W5 m ρ c (Proc.devRef .tc main_v47)
      rw [StableHlo.binary_result_ne]; decide
    | ⟨1, _⟩ =>
      refine (((dat1 (V5 m ρ) c).arrAt_in 1 rfl _).trans (A_eq1 (V5 m ρ) c 1)).trans (Eq.symm ?_)
      show secondDot.result (W5 m ρ c) (Proc.devRef .tc main_arg4) = W5 m ρ c (Proc.devRef .tc main_arg4)
      rw [StableHlo.binary_result_ne]; decide
    | ⟨2, _⟩ =>
      refine (Product1.result_eq (V5 m ρ) c).trans (Eq.symm ?_)
      show secondDot.result (W5 m ρ c) (Proc.devRef .tc main_v48) = _
      rw [StableHlo.binary_result]
  · have hkeep : W6 m ρ c b = W5 m ρ c b := by
      unfold W6 Pipeline.withArrays
      rw [dif_neg hb]
    rw [hkeep]
    refine (HloOp.result_of_not_mem _ _ ?_).symm
    rw [StableHlo.binary_writes, Finset.mem_singleton]
    intro e
    exact hb ⟨2, e.symm⟩

end Cert.KernelIdeal.Fold

end
-- ==== Proof.SameGlue.lean ====
/-
  The two programs are one text around the two dense transforms.

  Both start from the edge list: the sources and the targets of the 800000 edges, each followed by the 50000 self loops;
  the in-degree of every node by a scatter-add of ones over the targets; and its inverse square root where it is
  positive, zero elsewhere. Each layer then gathers the transformed rows at the sources, scales row e by
  dis[src e] · dis[dst e], scatter-adds into the targets and adds the bias; the first layer is clamped below at zero.
  All of this is the same sequence of host operations in the kernel's program and in the reference, on the same
  operands. They differ only in how the two dense transforms x·W1 and h·W2 are computed, and those are equal on the
  extended reals (FirstProduct, SecondProduct). So, stretch by stretch: from arguments that agree the index and degree
  stretch leaves the same sources, targets and normalisation; the first transforms agree; and from there to the result
  the remaining stretch — with the second transform as one more host operation — is the same function of the same values.
-/
import proofs.«122224_j21835613733678_1_alg».proof.Proof.RefRunPatched
import proofs.«122224_j21835613733678_1_alg».proof.Proof.KernelFold
import Idealize.ShloMosaic.PureOps.Ideal
import Idealize.ShloMosaic.Lib.StableHlo.Run

set_option maxRecDepth 16384

noncomputable section

namespace Cert.Bridge

open Idealize.ShloMosaic Idealize.ShloMosaic.TcCoe Idealize.SL.Sem Idealize.ShloMosaic.StableHlo

/-- Buffer contents of the kernel's program and of the reference. -/
abbrev KVal := Valuation Cert.KernelIdeal.τ Cert.KernelIdeal.sig (Elt Ideal)
abbrev RVal := Valuation Cert.ReferenceIdeal.τ Cert.ReferenceIdeal.sig (Elt Ideal)

/-! ## The reference's operations: the index and degree stretch, the first transform, the rest -/

/-- The reference's operations before its first dense transform: sources, targets, degrees, normalisation. -/
abbrev refHead : List (HloOp Cert.ReferenceIdeal.τ Cert.ReferenceIdeal.sig (Elt Ideal)) := (Cert.ReferenceIdeal.RunP.ops (F := Ideal)).take 21
/-- Its first dense transform, x·W1 on the host. -/
abbrev refDot0 : HloOp Cert.ReferenceIdeal.τ Cert.ReferenceIdeal.sig (Elt Ideal) :=
  binary Cert.ReferenceIdeal.main_arg0 Cert.ReferenceIdeal.main_arg2 Cert.ReferenceIdeal.main_v15
    ((fun l r => Host.dotGeneral (F := Ideal) (φ₁ := .f32) (φ₂ := .f32) Cert.ReferenceIdeal.dot_S50000x256_S256x128_S50000x128_1_0_0_1_n_n none l r) : (⟨Cert.ReferenceIdeal.S50000x256, .f32⟩ : BufTy).Contents (Elt Ideal) → (⟨Cert.ReferenceIdeal.S256x128, .f32⟩ : BufTy).Contents (Elt Ideal) → (⟨Cert.ReferenceIdeal.S50000x128, .f32⟩ : BufTy).Contents (Elt Ideal))
/-- Everything after it: the first layer's aggregation, the second transform, the second layer's aggregation. -/
abbrev refRest : List (HloOp Cert.ReferenceIdeal.τ Cert.ReferenceIdeal.sig (Elt Ideal)) := (Cert.ReferenceIdeal.RunP.ops (F := Ideal)).drop 22

theorem ops_split : Cert.ReferenceIdeal.RunP.ops (F := Ideal) = refHead ++ refDot0 :: refRest := rfl

/-- Operations run one list after another are the concatenated list run once. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The named operation lists as literal lists. -/
local macro "lists" : tactic =>
  `(tactic| simp only [refHead, refRest, Cert.ReferenceIdeal.RunP.ops, List.take, List.drop,
      Cert.KernelIdeal.Gen.hostOps0, Cert.KernelIdeal.Gen.hostOps0_1, Cert.KernelIdeal.Gen.hostOps1, Cert.KernelIdeal.Gen.hostOps1_1, Cert.KernelIdeal.Gen.hostOps2, Cert.KernelIdeal.Fold.secondDot])

/-! ## The index and degree stretch -/

/-- From the same edge list, the same message sources (edge sources, then the self loops). -/
theorem head_src (V : KVal) (V' : RVal)
    (h1 : V' (Proc.devRef .tc Cert.ReferenceIdeal.main_arg1) = V (Proc.devRef .tc Cert.KernelIdeal.main_arg1)) :
    after refHead V' (Proc.devRef .tc Cert.ReferenceIdeal.main_v3)
      = after Cert.KernelIdeal.Gen.hostOps0_1 (after Cert.KernelIdeal.Gen.hostOps0 V) (Proc.devRef .tc Cert.KernelIdeal.main_v3) := by
  lists; after_results; rw [h1]; rfl

/-- From the same edge list, the same aggregation targets (edge targets, then the self loops). -/
theorem head_dst (V : KVal) (V' : RVal)
    (h1 : V' (Proc.devRef .tc Cert.ReferenceIdeal.main_arg1) = V (Proc.devRef .tc Cert.KernelIdeal.main_arg1)) :
    after refHead V' (Proc.devRef .tc Cert.ReferenceIdeal.main_v6)
      = after Cert.KernelIdeal.Gen.hostOps0_1 (after Cert.KernelIdeal.Gen.hostOps0 V) (Proc.devRef .tc Cert.KernelIdeal.main_v6) := by
  lists; after_results; rw [h1]; rfl

set_option maxHeartbeats 8000000 in
/-- From the same edge list, the same inverse square roots of the in-degrees (zero where the degree is not positive). -/
theorem head_norm (V : KVal) (V' : RVal)
    (h1 : V' (Proc.devRef .tc Cert.ReferenceIdeal.main_arg1) = V (Proc.devRef .tc Cert.KernelIdeal.main_arg1)) :
    after refHead V' (Proc.devRef .tc Cert.ReferenceIdeal.main_v14)
      = after Cert.KernelIdeal.Gen.hostOps0_1 (after Cert.KernelIdeal.Gen.hostOps0 V) (Proc.devRef .tc Cert.KernelIdeal.main_v14) := by
  lists; after_results; rw [h1]; rfl

/-! The stretch writes none of the float arguments. -/

theorem ref_head_arg0 (V' : RVal) :
    after refHead V' (Proc.devRef .tc Cert.ReferenceIdeal.main_arg0) = V' (Proc.devRef .tc Cert.ReferenceIdeal.main_arg0) := by
  lists; after_results

theorem ref_head_arg2 (V' : RVal) :
    after refHead V' (Proc.devRef .tc Cert.ReferenceIdeal.main_arg2) = V' (Proc.devRef .tc Cert.ReferenceIdeal.main_arg2) := by
  lists; after_results

theorem ref_head_arg3 (V' : RVal) :
    after refHead V' (Proc.devRef .tc Cert.ReferenceIdeal.main_arg3) = V' (Proc.devRef .tc Cert.ReferenceIdeal.main_arg3) := by
  lists; after_results

theorem ref_head_arg4 (V' : RVal) :
    after refHead V' (Proc.devRef .tc Cert.ReferenceIdeal.main_arg4) = V' (Proc.devRef .tc Cert.ReferenceIdeal.main_arg4) := by
  lists; after_results

theorem ref_head_arg5 (V' : RVal) :
    after refHead V' (Proc.devRef .tc Cert.ReferenceIdeal.main_arg5) = V' (Proc.devRef .tc Cert.ReferenceIdeal.main_arg5) := by
  lists; after_results

theorem ker_head_arg0 (V : KVal) :
    after Cert.KernelIdeal.Gen.hostOps0_1 (after Cert.KernelIdeal.Gen.hostOps0 V) (Proc.devRef .tc Cert.KernelIdeal.main_arg0) = V (Proc.devRef .tc Cert.KernelIdeal.main_arg0) := by
  lists; after_results

theorem ker_head_arg2 (V : KVal) :
    after Cert.KernelIdeal.Gen.hostOps0_1 (after Cert.KernelIdeal.Gen.hostOps0 V) (Proc.devRef .tc Cert.KernelIdeal.main_arg2) = V (Proc.devRef .tc Cert.KernelIdeal.main_arg2) := by
  lists; after_results

theorem ker_head_arg3 (V : KVal) :
    after Cert.KernelIdeal.Gen.hostOps0_1 (after Cert.KernelIdeal.Gen.hostOps0 V) (Proc.devRef .tc Cert.KernelIdeal.main_arg3) = V (Proc.devRef .tc Cert.KernelIdeal.main_arg3) := by
  lists; after_results

theorem ker_head_arg4 (V : KVal) :
    after Cert.KernelIdeal.Gen.hostOps0_1 (after Cert.KernelIdeal.Gen.hostOps0 V) (Proc.devRef .tc Cert.KernelIdeal.main_arg4) = V (Proc.devRef .tc Cert.KernelIdeal.main_arg4) := by
  lists; after_results

theorem ker_head_arg5 (V : KVal) :
    after Cert.KernelIdeal.Gen.hostOps0_1 (after Cert.KernelIdeal.Gen.hostOps0 V) (Proc.devRef .tc Cert.KernelIdeal.main_arg5) = V (Proc.devRef .tc Cert.KernelIdeal.main_arg5) := by
  lists; after_results

/-! ## From the first transform's result to the program's result -/

set_option maxHeartbeats 40000000 in
/-- From contents that agree on the sources, the targets, the normalisation, the first transform's result, the two
    biases and the second weight matrix, the rest of the reference and the rest of the kernel's program — its second
    launch read as the host operation it amounts to — end with the same result: the same operations on the same values. -/
theorem rest_agree (V : KVal) (V' : RVal)
    (h3 : V' (Proc.devRef .tc Cert.ReferenceIdeal.main_v3) = V (Proc.devRef .tc Cert.KernelIdeal.main_v3))
    (h6 : V' (Proc.devRef .tc Cert.ReferenceIdeal.main_v6) = V (Proc.devRef .tc Cert.KernelIdeal.main_v6))
    (h14 : V' (Proc.devRef .tc Cert.ReferenceIdeal.main_v14) = V (Proc.devRef .tc Cert.KernelIdeal.main_v14))
    (h15 : V' (Proc.devRef .tc Cert.ReferenceIdeal.main_v15) = V (Proc.devRef .tc Cert.KernelIdeal.main_v15))
    (ha3 : V' (Proc.devRef .tc Cert.ReferenceIdeal.main_arg3) = V (Proc.devRef .tc Cert.KernelIdeal.main_arg3))
    (ha4 : V' (Proc.devRef .tc Cert.ReferenceIdeal.main_arg4) = V (Proc.devRef .tc Cert.KernelIdeal.main_arg4))
    (ha5 : V' (Proc.devRef .tc Cert.ReferenceIdeal.main_arg5) = V (Proc.devRef .tc Cert.KernelIdeal.main_arg5)) :
    after refRest V' (Proc.devRef .tc Cert.ReferenceIdeal.main_v79)
      = after Cert.KernelIdeal.Gen.hostOps2 (Cert.KernelIdeal.Fold.secondDot.result (after Cert.KernelIdeal.Gen.hostOps1_1 (after Cert.KernelIdeal.Gen.hostOps1 V)))
          (Proc.devRef .tc Cert.KernelIdeal.main_v79) := by
  lists
  after_results_simp
  rw [h3, h6, h14, h15, ha3, ha4, ha5]
  rfl

end Cert.Bridge

end
-- ==== Proof.ResultsAgree.lean ====
/-
  From arguments that agree, the reference's result and the idealized kernel's result are equal.

  The reference's result is the fold of its operations over its launch memory; the kernel's is the last boundary's
  contents at the result buffer. Cut both after the first dense transform. Up to there: the sources, the targets and
  the normalisation come out of the same operations on the same edge list; the first transform's result is x·W1 on both
  sides (the launch's row blocks tile the whole product); the float arguments are untouched. From there on the two
  programs run the same operations on values that agree (SameGlue), the kernel's second launch being h·W2 as a host
  operation would compute it.
-/
import proofs.«122224_j21835613733678_1_alg».proof.Proof.SameGlue

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- THE RESULTS AGREE: from memories that agree on the six arguments, the reference's fold at its result buffer is the
    kernel's last boundary at its result buffer. -/
theorem value_eq (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.RunP.ops (F := Ideal)) (launchContents m' c) (Proc.devRef .tc Cert.ReferenceIdeal.main_v79)
      = Cert.KernelIdeal.Gen.W7 m ρ c (Proc.devRef .tc Cert.KernelIdeal.main_v79) := by
  -- the launch contents agree on the arguments
  have a0 : launchContents m' c (Proc.devRef .tc Cert.ReferenceIdeal.main_arg0) = Cert.KernelIdeal.Gen.W0 m ρ c (Proc.devRef .tc Cert.KernelIdeal.main_arg0) := g0
  have a1 : launchContents m' c (Proc.devRef .tc Cert.ReferenceIdeal.main_arg1) = Cert.KernelIdeal.Gen.W0 m ρ c (Proc.devRef .tc Cert.KernelIdeal.main_arg1) := g1
  have a2 : launchContents m' c (Proc.devRef .tc Cert.ReferenceIdeal.main_arg2) = Cert.KernelIdeal.Gen.W0 m ρ c (Proc.devRef .tc Cert.KernelIdeal.main_arg2) := g2
  have a3 : launchContents m' c (Proc.devRef .tc Cert.ReferenceIdeal.main_arg3) = Cert.KernelIdeal.Gen.W0 m ρ c (Proc.devRef .tc Cert.KernelIdeal.main_arg3) := g3
  have a4 : launchContents m' c (Proc.devRef .tc Cert.ReferenceIdeal.main_arg4) = Cert.KernelIdeal.Gen.W0 m ρ c (Proc.devRef .tc Cert.KernelIdeal.main_arg4) := g4
  have a5 : launchContents m' c (Proc.devRef .tc Cert.ReferenceIdeal.main_arg5) = Cert.KernelIdeal.Gen.W0 m ρ c (Proc.devRef .tc Cert.KernelIdeal.main_arg5) := g5
  -- after the index and degree stretch the float arguments still agree
  have e0 : after refHead (launchContents m' c) (Proc.devRef .tc Cert.ReferenceIdeal.main_arg0) = Cert.KernelIdeal.Gen.W2 m ρ c (Proc.devRef .tc Cert.KernelIdeal.main_arg0) :=
    (ref_head_arg0 _).trans (a0.trans (ker_head_arg0 (Cert.KernelIdeal.Gen.W0 m ρ c)).symm)
  have e2 : after refHead (launchContents m' c) (Proc.devRef .tc Cert.ReferenceIdeal.main_arg2) = Cert.KernelIdeal.Gen.W2 m ρ c (Proc.devRef .tc Cert.KernelIdeal.main_arg2) :=
    (ref_head_arg2 _).trans (a2.trans (ker_head_arg2 (Cert.KernelIdeal.Gen.W0 m ρ c)).symm)
  have e3 : after refHead (launchContents m' c) (Proc.devRef .tc Cert.ReferenceIdeal.main_arg3) = Cert.KernelIdeal.Gen.W2 m ρ c (Proc.devRef .tc Cert.KernelIdeal.main_arg3) :=
    (ref_head_arg3 _).trans (a3.trans (ker_head_arg3 (Cert.KernelIdeal.Gen.W0 m ρ c)).symm)
  have e4 : after refHead (launchContents m' c) (Proc.devRef .tc Cert.ReferenceIdeal.main_arg4) = Cert.KernelIdeal.Gen.W2 m ρ c (Proc.devRef .tc Cert.KernelIdeal.main_arg4) :=
    (ref_head_arg4 _).trans (a4.trans (ker_head_arg4 (Cert.KernelIdeal.Gen.W0 m ρ c)).symm)
  have e5 : after refHead (launchContents m' c) (Proc.devRef .tc Cert.ReferenceIdeal.main_arg5) = Cert.KernelIdeal.Gen.W2 m ρ c (Proc.devRef .tc Cert.KernelIdeal.main_arg5) :=
    (ref_head_arg5 _).trans (a5.trans (ker_head_arg5 (Cert.KernelIdeal.Gen.W0 m ρ c)).symm)
  -- cut the reference after its first transform; read the kernel's second launch as a host operation
  rw [ops_split, after_append, after_cons]
  show after refRest (refDot0.result (after refHead (launchContents m' c))) (Proc.devRef .tc Cert.ReferenceIdeal.main_v79)
      = after Cert.KernelIdeal.Gen.hostOps2 (Cert.KernelIdeal.Gen.W6 m ρ c) (Proc.devRef .tc Cert.KernelIdeal.main_v79)
  rw [Cert.KernelIdeal.Fold.second_region]
  refine rest_agree (Cert.KernelIdeal.Gen.W3 m ρ c) (refDot0.result (after refHead (launchContents m' c))) ?_ ?_ ?_ ?_ ?_ ?_ ?_
  · -- the sources
    rw [binary_result_ne]; rotate_left; decide
    rw [Cert.KernelIdeal.Gen.W3_of_ne m ρ c Cert.KernelIdeal.main_v3 (by decide)]
    exact head_src (Cert.KernelIdeal.Gen.W0 m ρ c) (launchContents m' c) a1
  · -- the targets
    rw [binary_result_ne]; rotate_left; decide
    rw [Cert.KernelIdeal.Gen.W3_of_ne m ρ c Cert.KernelIdeal.main_v6 (by decide)]
    exact head_dst (Cert.KernelIdeal.Gen.W0 m ρ c) (launchContents m' c) a1
  · -- the normalisation
    rw [binary_result_ne]; rotate_left; decide
    rw [Cert.KernelIdeal.Gen.W3_of_ne m ρ c Cert.KernelIdeal.main_v14 (by decide)]
    exact head_norm (Cert.KernelIdeal.Gen.W0 m ρ c) (launchContents m' c) a1
  · -- the first transform: x·W1 on both sides
    rw [binary_result, e0, e2, Cert.KernelIdeal.Fold.first_result]
    rfl
  · -- the first bias
    rw [binary_result_ne]; rotate_left; decide
    rw [Cert.KernelIdeal.Gen.W3_of_ne m ρ c Cert.KernelIdeal.main_arg3 (by decide)]
    exact e3
  · -- the second weight matrix
    rw [binary_result_ne]; rotate_left; decide
    rw [Cert.KernelIdeal.Gen.W3_of_ne m ρ c Cert.KernelIdeal.main_arg4 (by decide)]
    exact e4
  · -- the second bias
    rw [binary_result_ne]; rotate_left; decide
    rw [Cert.KernelIdeal.Gen.W3_of_ne m ρ c Cert.KernelIdeal.main_arg5 (by decide)]
    exact e5

end Cert.Bridge

end
-- ==== Proof.lean ====
/-
  A two-layer graph convolution: the tiled kernel against its reference, on the extended reals.

  out = Â · relu(Â · (x·W1) + b1) · W2 + b2 in the usual notation, where Â aggregates along the 800000 edges and the
  50000 self loops with the symmetric normalisation dis[src]·dis[dst], dis the inverse square root of the in-degree.
  The kernel's program computes the two dense transforms x·W1 and h·W2 by a launch each, 25 blocks of 2000 rows, each
  block rounded to a narrower format and multiplied into a zero accumulator; the reference computes them as whole
  products on the host. Everything else — building sources and targets, the degrees, the gathers, the scaling, the
  scatter-adds, the biases, the clamp — is the same host text in both.

  On the extended reals the rounding is the identity and a row block of a product is the product's rows, so each launch
  leaves the whole product (FirstProduct, SecondProduct); the two programs are then the same operations on the same
  values (SameGlue, ResultsAgree). No finiteness of the inputs is used: nothing is rearranged, each sum is the same sum.

  The three frames are the programs' runs with the result dropped; the ideal pass rewrote nothing, so the kernel's
  idealization is its own text and that conjunct is trivial.
-/
import proofs.«122224_j21835613733678_1_alg».proof.Defs
import proofs.«122224_j21835613733678_1_alg».proof.Proof.Gen.Kernel
import proofs.«122224_j21835613733678_1_alg».proof.Proof.Gen.Kernel.Skeleton
import proofs.«122224_j21835613733678_1_alg».proof.Proof.Gen.Kernel.Launch
import proofs.«122224_j21835613733678_1_alg».proof.Proof.Gen.Kernel.Points
import proofs.«122224_j21835613733678_1_alg».proof.Proof.Gen.Kernel.Frame
import proofs.«122224_j21835613733678_1_alg».proof.Proof.Gen.KernelIdeal
import proofs.«122224_j21835613733678_1_alg».proof.Proof.Gen.KernelIdeal.Skeleton
import proofs.«122224_j21835613733678_1_alg».proof.Proof.Gen.KernelIdeal.Launch
import proofs.«122224_j21835613733678_1_alg».proof.Proof.Gen.KernelIdeal.Points
import proofs.«122224_j21835613733678_1_alg».proof.Proof.Gen.KernelIdeal.Frame
import proofs.«122224_j21835613733678_1_alg».proof.Proof.Gen.ReferenceIdeal
import proofs.«122224_j21835613733678_1_alg».proof.Proof.Gen.Pre_finite_inputs
import proofs.«122224_j21835613733678_1_alg».proof.Proof.RefRunPatched
import proofs.«122224_j21835613733678_1_alg».proof.Proof.KernelRun
import proofs.«122224_j21835613733678_1_alg».proof.Proof.ResultsAgree
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the arguments both programs run, and end with the same result: the kernel's last
    boundary contents at the result buffer, which is what the reference's operations compute (ResultsAgree). -/
theorem algebraic : Cert.algebraic_KernelIdeal_ReferenceIdeal := by
  intro m ρ m' ρ' _ hagree
  refine ⟨fun c => Cert.KernelIdeal.Gen.W7 m ρ c (Proc.devRef .tc Cert.KernelIdeal.main_v79),
    Cert.KernelIdeal.Fold.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨g0, g1, g2, g3, g4, g5⟩ := hagree c
  exact Cert.Bridge.value_eq m ρ m' c g0 g1 g2 g3 g4 g5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
